-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel

variable [Facts]

def fn {F : FTy → Type} [FloatOps F] (main_arg0 : FVec F S64x256x56x56 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  main_v3
-- ==== Kernel.lean ====
abbrev S64x256x56x56 : Shape := ⟨4, ![64, 256, 56, 56]⟩
abbrev S51380224 : Shape := ⟨1, ![51380224]⟩
abbrev S25088x2048 : Shape := ⟨2, ![25088, 2048]⟩
abbrev S448x2048 : Shape := ⟨2, ![448, 2048]⟩

abbrev nBuf : Space → Nat
  | .hbm => 6
  | .vmem => 4
  | .smem => 0
  | _ => 0

abbrev bufTy : (tb : Table) → Fin (tcTables nBuf tb) → BufTy
  | .hbm, ⟨0, _⟩ => ⟨S64x256x56x56, .f32⟩
  | .hbm, ⟨1, _⟩ => ⟨S51380224, .f32⟩
  | .hbm, ⟨2, _⟩ => ⟨S25088x2048, .f32⟩
  | .hbm, ⟨3, _⟩ => ⟨S25088x2048, .f32⟩
  | .hbm, ⟨4, _⟩ => ⟨S51380224, .f32⟩
  | .hbm, ⟨5, _⟩ => ⟨S64x256x56x56, .f32⟩
  | .local _ .vmem, ⟨0, _⟩ => ⟨S448x2048, .f32⟩
  | .local _ .vmem, ⟨1, _⟩ => ⟨S448x2048, .f32⟩
  | .local _ .vmem, ⟨2, _⟩ => ⟨S448x2048, .f32⟩
  | .local _ .vmem, ⟨3, _⟩ => ⟨S448x2048, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![56], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S448x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S448x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x256x56x56_S51380224 : S64x256x56x56.ShapeCasts S51380224
  shapeCasts_S51380224_S25088x2048 : S51380224.ShapeCasts S25088x2048
  inb_S448x2048_S448x2048_0_0 : ∀ a, (![0, 0] : Fin 2 → Nat) a + S448x2048.size a ≤ S448x2048.size a
  h_S448x2048 : 0 < S448x2048.numel
  shapeCasts_S448x2048_S448x2048 : S448x2048.ShapeCasts S448x2048
  shapeCasts_S25088x2048_S51380224 : S25088x2048.ShapeCasts S51380224
  shapeCasts_S51380224_S64x256x56x56 : S51380224.ShapeCasts S64x256x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S448x2048.size a ≤ S25088x2048.size a
  hwx0_0 : ∀ i : grid0.Coords, EltTy.bits .f32 = 32 ∨ (Rect.block (s := S25088x2048) S448x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S448x2048.size a ≤ S25088x2048.size a
  hwx0_1 : ∀ i : grid0.Coords, EltTy.bits .f32 = 32 ∨ (Rect.block (s := S25088x2048) S448x2048.size (cc0_transform_1 i) (hinb0_1 i)).WholeWords (EltTy.packing .f32)

variable [Facts₀]

abbrev win0_0 : Pipeline.Window sig grid0 :=
  Pipeline.Window.ofSpec (Memref.whole main_v1) S448x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S448x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x256x56x56 : Shape := ⟨4, ![64, 256, 56, 56]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S_, .f32⟩
  | .hbm, ⟨2, _⟩ => ⟨S64x256x56x56, .f32⟩
  | .hbm, ⟨3, _⟩ => ⟨S64x256x56x56, .f32⟩
  | .hbm, ⟨4, _⟩ => ⟨S_, .f32⟩
  | .hbm, ⟨5, _⟩ => ⟨S64x256x56x56, .f32⟩
  | .hbm, ⟨6, _⟩ => ⟨S64x256x56x56, .f32⟩
  | .hbm, ⟨7, _⟩ => ⟨S64x256x56x56, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S64x256x56x56, .f32⟩
  | .hbm, ⟨14, _⟩ => ⟨S64x256x56x56, .f32⟩
  | .hbm, ⟨15, _⟩ => ⟨S64x256x56x56, .f32⟩
  | .hbm, ⟨16, _⟩ => ⟨S64x256x56x56, .f32⟩
  | .hbm, ⟨17, _⟩ => ⟨S_, .f32⟩
  | .hbm, ⟨18, _⟩ => ⟨S64x256x56x56, .f32⟩
  | .hbm, ⟨19, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_cst_2 : Ref sig .tc := ⟨.hbm, 10, rfl⟩
abbrev main_cst_3 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v7 : Ref sig .tc := ⟨.hbm, 16, rfl⟩
abbrev main_cst_4 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]

class Facts₀ : Prop where
  bcast_S_S64x256x56x56 : S_.BroadcastsInDim S64x256x56x56 (![] : Fin 0 → Fin S64x256x56x56.rank)

variable [Facts₀]

class Facts : Prop extends Facts₀ where

variable [Facts]
-- ==== Proof.Quantize.lean ====
/-
  The fixed-point quantizer on the extended reals, in the two spellings the programs print, and the law that joins them.

  With sixteen steps to the unit and an eight-bit signed range the quantizer sends x to

      clamp (⌊16·x + 1/2⌋, -128, 127) / 16.

  One program scales by the product with 16 and clamps between the literals -128 and 127; the other scales by the
  quotient by 1/16, and clamps between the negation of 128 and the difference 128 - 1.  Every number here is a dyadic
  rational that its binary pattern denotes exactly, and dividing by the nonzero real 1/16 is multiplying by 16 on EVERY
  extended real, the infinities included — so the two spellings are one function with no finiteness assumed.  The
  half that is added before the floor and the sixteenth that multiplies after the clamp are spelt alike on both sides
  and are never evaluated.
-/
import Idealize.ShloMosaic.PureOps.Ideal

noncomputable section

namespace Cert.Quantize

open Idealize.ShloMosaic

/-! ## The patterns as numbers -/

/-- The pattern of `16.0` denotes the real 16. -/
theorem word_sixteen : Ideal.ofBits .f32 0x41800000#32 = ((16 : ℝ) : EReal) := by
  simp [Ideal.ofBits, Ideal.ieee, -EReal.coe_mul]; norm_num

/-- The pattern of `0.0625` denotes the real 1/16. -/
theorem word_sixteenth : Ideal.ofBits .f32 0x3D800000#32 = ((1 / 16 : ℝ) : EReal) := by
  simp [Ideal.ofBits, Ideal.ieee, -EReal.coe_mul]; norm_num

/-- The pattern of `128.0` denotes the real 128. -/
theorem word_128 : Ideal.ofBits .f32 0x43000000#32 = ((128 : ℝ) : EReal) := by
  simp [Ideal.ofBits, Ideal.ieee, -EReal.coe_mul]; norm_num

/-- The pattern of `1.0` denotes the real 1. -/
theorem word_one : Ideal.ofBits .f32 0x3F800000#32 = ((1 : ℝ) : EReal) := by
  simp [Ideal.ofBits, Ideal.ieee, -EReal.coe_mul]; norm_num

/-- The pattern of `-128.0` denotes the real -128. -/
theorem word_neg128 : Ideal.ofBits .f32 0xC3000000#32 = ((-128 : ℝ) : EReal) := by
  simp [Ideal.ofBits, Ideal.ieee, -EReal.coe_mul]; norm_num

/-- The pattern of `127.0` denotes the real 127. -/
theorem word_127 : Ideal.ofBits .f32 0x42FE0000#32 = ((127 : ℝ) : EReal) := by
  simp [Ideal.ofBits, Ideal.ieee, -EReal.coe_mul]; norm_num

/-! ## The two spellings -/

/-- The quantizer scaling by a PRODUCT and clamping between two literals:
    `min 127 (max (-128) ⌊x · 16 + 1/2⌋) · (1/16)`. -/
def byProduct (x : EReal) : EReal :=
  min (Ideal.ofBits .f32 0x42FE0000#32)
      (max (Ideal.ofBits .f32 0xC3000000#32)
        (Ideal.liftRound Int.floor (x * Ideal.ofBits .f32 0x41800000#32 + Ideal.ofBits .f32 0x3F000000#32)))
    * Ideal.ofBits .f32 0x3D800000#32

/-- The quantizer scaling by a QUOTIENT and clamping between a negation and a difference:
    `min (128 - 1) (max (-(128)) ⌊x / (1/16) + 1/2⌋) · (1/16)`. -/
def byQuotient (x : EReal) : EReal :=
  min (Ideal.ofBits .f32 0x43000000#32 - Ideal.ofBits .f32 0x3F800000#32)
      (max (-(Ideal.ofBits .f32 0x43000000#32))
        (Ideal.liftRound Int.floor (Ideal.div x (Ideal.ofBits .f32 0x3D800000#32) + Ideal.ofBits .f32 0x3F000000#32)))
    * Ideal.ofBits .f32 0x3D800000#32

/-! ## The law -/

/-- The upper bound: 128 - 1 is 127. -/
theorem upper_eq : Ideal.ofBits .f32 0x43000000#32 - Ideal.ofBits .f32 0x3F800000#32 = Ideal.ofBits .f32 0x42FE0000#32 := by
  rw [word_128, word_one, word_127, ← EReal.coe_sub]
  norm_num

/-- The lower bound: the negation of 128 is -128. -/
theorem lower_eq : -(Ideal.ofBits .f32 0x43000000#32) = Ideal.ofBits .f32 0xC3000000#32 := by
  rw [word_128, word_neg128, ← EReal.coe_neg]

/-- The scaling: the quotient by 1/16 is the product with 16, at every extended real. -/
theorem scale_eq (x : EReal) : Ideal.div x (Ideal.ofBits .f32 0x3D800000#32) = x * Ideal.ofBits .f32 0x41800000#32 := by
  rw [word_sixteenth, word_sixteen, Ideal.div_coe (by norm_num : (1 / 16 : ℝ) ≠ 0)]
  norm_num

/-- The two spellings are one function on the extended reals. -/
theorem byQuotient_eq_byProduct (x : EReal) : byQuotient x = byProduct x := by
  unfold byQuotient byProduct
  rw [upper_eq, lower_eq, scale_eq]

end Cert.Quantize

end
-- ==== Proof.KernelBlock.lean ====
/-
  What the kernel's body stores, entry by entry.

  The body loads its whole 448 × 2048 block, and stores back one value computed from it by pointwise operations only:
  each entry is scaled by 16, shifted by a half, floored, clamped between -128 and 127 and scaled by a sixteenth.  So on
  the extended reals the stored block is the quantizer, in its product spelling, applied to every entry of the loaded
  block; the cast of the block to its own shape changes nothing.
-/
import proofs.«153642_j26233660244146_2_alg».proof.Proof.Gen.KernelIdeal.Skeleton
import proofs.«153642_j26233660244146_2_alg».proof.Proof.Quantize
import Idealize.ShloMosaic.Lib.Pipeline.Value

noncomputable section

namespace Cert.KernelIdeal.Quant

open Cert.KernelIdeal Cert.KernelIdeal.Gen Idealize.ShloMosaic

/-- The stored block is the quantizer of the loaded block, entry by entry. -/
theorem stored_eq (x0 : Vec Ideal S448x2048 .f32) :
    k0_pay1 (F := Ideal) x0 = fun j => Cert.Quantize.byProduct (x0 j) := by
  have hcast : shapeCast S448x2048 x0 Facts₀.shapeCasts_S448x2048_S448x2048 = x0 := shapeCast_self _ _
  unfold k0_pay1
  dsimp only
  rw [hcast]
  rfl

end Cert.KernelIdeal.Quant

end
-- ==== Proof.KernelArray.lean ====
/-
  From blocks to the array: what the region leaves in its result array.

  The grid has 56 points.  Point t reads rows 448·t … 448·t + 447 of the 25088 × 2048 input array and writes the same
  rows of the result array: both windows sit at block row t and block column 0, so an entry of the written block is the
  quantizer of the entry of the input array AT THE SAME PLACE.  The 56 row bands tile the 25088 rows, so every entry of
  the result array is written, by point (row / 448), and after the region the result array is the quantizer applied
  entrywise to the input array as the region found it.
-/
import proofs.«153642_j26233660244146_2_alg».proof.Proof.Gen.KernelIdeal.Frame
import proofs.«153642_j26233660244146_2_alg».proof.Proof.KernelBlock
import Idealize.ShloMosaic.Lib.Pipeline.Value

noncomputable section

namespace Cert.KernelIdeal.Quant

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The body's accesses start at the block's origin. -/
theorem origin : (![0, 0] : Fin 2 → Nat) = fun _ => 0 := funext fun a => by fin_cases a <;> rfl

/-- The two windows move together: at point t both are at block row t, block column 0 (decided over the 56 points). -/
theorem index_facts : ∀ t : Fin cfg0.N, win0_0.index t (0 : Fin 2) = win0_1.index t (0 : Fin 2)
    ∧ win0_0.index t (1 : Fin 2) = win0_1.index t (1 : Fin 2)
    ∧ win0_1.index t (0 : Fin 2) = t.val
    ∧ win0_1.index t (1 : Fin 2) = 0 :=
  (by decide +kernel : ∀ t : Fin grid0.N, _)

/-- WHAT POINT t WRITES BACK is block t of the quantizer applied entrywise to the input array as the region finds it. -/
theorem flushed_eq (c : Dev nD) (t : Fin cfg0.N) :
    (dats m 0 c).flushed 1 t
      = ((cfg0.win 1).blk t).view.read (Elt Ideal) (fun i => Cert.Quantize.byProduct (V m c main_v1 i)) := by
  show (cfg0.win 1).cut (grid0.coords t) ((dats m 0 c).after 1 t) = _
  rw [after0_1]
  unfold out0_1
  rw [View.canon_unit_zero origin]
  simp only [View.ld_unit_zero (S := S448x2048) origin]
  rw [stored_eq]
  obtain ⟨e0, e1, -, -⟩ := index_facts t
  funext j
  show Cert.Quantize.byProduct (V m c main_v1 (((cfg0.win 0).blk t).view.emb j))
    = Cert.Quantize.byProduct (V m c main_v1 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 448 + 1 * (j 0).val = win0_1.index t (0 : Fin 2) * 448 + 1 * (j 0).val; omega
    | ⟨1, _⟩ => show win0_0.index t (1 : Fin 2) * 2048 + 1 * (j 1).val = win0_1.index t (1 : Fin 2) * 2048 + 1 * (j 1).val; omega
  rw [h0]

/-- An entry of the result array lies in point t's block iff each coordinate lies in the block's range on its axis. -/
theorem mem_blk (t : Fin cfg0.N) (i : S25088x2048.Idx) :
    i ∈ ((cfg0.win 1).blk t).view.set ↔ ∀ a : Fin 2, win0_1.index t a * S448x2048.size a ≤ (i a).val
      ∧ (i a).val < win0_1.index t a * S448x2048.size a + S448x2048.size a := by
  show i ∈ ((View.whole main_v2).slice (win0_1.rect t)).set ↔ _
  rw [View.set_slice_whole, Rect.mem_set_unit]
  exact Iff.rfl

/-- Every entry of the result array is written: entry (r, k) by the point r / 448. -/
theorem covered (i : S25088x2048.Idx) :
    ∃ t : Fin cfg0.N, (cfg0.win 1).flush t = true ∧ i ∈ ((cfg0.win 1).blk t).view.set := by
  have hi0 : (i 0).val < 25088 := (i 0).isLt
  have hi1 : (i 1).val < 2048 := (i 1).isLt
  obtain ⟨t, ht⟩ : ∃ t : Fin cfg0.N, t.val = (i 0).val / 448 :=
    ⟨⟨(i 0).val / 448, lt_of_lt_of_eq (by omega : (i 0).val / 448 < 56) N_0.symm⟩, rfl⟩
  obtain ⟨-, -, q0, q1⟩ := index_facts t
  refine ⟨t, flush0_1 t, ?_⟩
  rw [mem_blk]
  intro a
  match a with
  | ⟨0, _⟩ =>
    show win0_1.index t (0 : Fin 2) * 448 ≤ (i 0).val ∧ (i 0).val < win0_1.index t (0 : Fin 2) * 448 + 448
    omega
  | ⟨1, _⟩ =>
    show win0_1.index t (1 : Fin 2) * 2048 ≤ (i 1).val ∧ (i 1).val < win0_1.index t (1 : Fin 2) * 2048 + 2048
    omega

/-- THE RESULT ARRAY after the region: the quantizer applied entrywise to the input array as the region found it. -/
theorem final (c : Dev nD) :
    (dats m 0 c).arrAt 1 cfg0.N = fun i => Cert.Quantize.byProduct (V m c main_v1 i) :=
  (dats m 0 c).arrAt_eq_of_cover 1 _ (fun t _ => flushed_eq m c t) covered

end Cert.KernelIdeal.Quant

end
-- ==== Proof.LibReshapeMap.lean ====
/-
  A pointwise map carried through reshapes.

  A reshape reads its operand at the index with the same row-major position, so it commutes with any function applied
  entry by entry; and a reshape there and back is the identity.  Hence a program that flattens an array in two steps,
  applies a pointwise map to the flat layout and reshapes the result back by the same two steps computes the map applied
  entrywise to the array it started from, whatever the three shapes are.
-/
import Idealize.ShloMosaic.Lib.Pipeline.Value

noncomputable section

namespace Cert.Lib

open Idealize.ShloMosaic

/-- A reshape of `f` applied entrywise is `f` applied entrywise to the reshape. -/
theorem shapeCast_map {s t : Shape} {α β : Type} (f : α → β) (v : s.Idx → α) (h : s.ShapeCasts t) :
    shapeCast t (fun i => f (v i)) h = fun j => f (shapeCast t v h j) := rfl

/-- Reshape s → u → t, apply `f` entrywise, reshape t → u → s: that is `f` applied entrywise to the array at shape s. -/
theorem reshape_map_reshape {s u t : Shape} {α β : Type} (f : α → β) (x : s.Idx → α)
    (h1 : s.ShapeCasts u) (h2 : u.ShapeCasts t) (h3 : t.ShapeCasts u) (h4 : u.ShapeCasts s) :
    shapeCast s (shapeCast u (fun i => f (shapeCast t (shapeCast u x h1) h2 i)) h3) h4 = fun i => f (x i) := by
  have inner : shapeCast u (fun i => f (shapeCast t (shapeCast u x h1) h2 i)) h3 = fun j => f (shapeCast u x h1 j) := by
    funext j
    exact congrArg f (congrFun (shapeCast_shapeCast (shapeCast u x h1) h2 h3) j)
  rw [inner]
  funext i
  exact congrArg f (congrFun (shapeCast_shapeCast x h1 h4) i)

end Cert.Lib

end
-- ==== Proof.KernelValue.lean ====
/-
  The kernel program's result as one function of its argument.

  Around its one region the program only re-lays the data: before the region it flattens the [64, 256, 56, 56] argument
  to 51380224 entries and cuts them into 25088 rows of 2048; after the region it flattens the result array and gives it
  the argument's shape again.  The region applies the quantizer to every entry of the 25088 × 2048 array.  A pointwise
  map commutes with a reshape and a reshape there and back is the identity, so the program's result is the quantizer (in
  its product spelling) applied to every entry of the argument, and the argument ends as it was launched.
-/
import proofs.«153642_j26233660244146_2_alg».proof.Proof.Gen.KernelIdeal.Frame
import proofs.«153642_j26233660244146_2_alg».proof.Proof.KernelArray
import proofs.«153642_j26233660244146_2_alg».proof.Proof.LibReshapeMap
import Idealize.ShloMosaic.Lib.StableHlo.Run

noncomputable section

namespace Cert.KernelIdeal.Quant

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The array the region reads, as it finds it: the argument flattened, then cut into rows of 2048. -/
theorem entry_eq (c : Dev nD) :
    (V m c main_v1 : S25088x2048.Idx → EReal)
      = shapeCast S25088x2048
          (shapeCast S51380224 (m ((c : Thread nD τ).loc main_arg0)) Facts₀.shapeCasts_S64x256x56x56_S51380224)
          Facts₀.shapeCasts_S51380224_S25088x2048 := by
  show StableHlo.after hostOps0 (fun b => m (c, b)) (Proc.devRef .tc main_v1) = _
  after_results
  rfl

/-- The program's result buffer after the lines that follow the region: the region's result array flattened, then given
    the argument's shape. -/
theorem exit_eq (c : Dev nD) :
    (Pipeline.afterTail₀ cfgs (dats m) 0 (V0 m) [hostOps1] c main_v4 : S64x256x56x56.Idx → EReal)
      = shapeCast S64x256x56x56
          (shapeCast S51380224 ((dats m 0 c).arrAt 1 cfg0.N : S25088x2048.Idx → EReal) Facts₀.shapeCasts_S25088x2048_S51380224)
          Facts₀.shapeCasts_S51380224_S64x256x56x56 := by
  have harr : Pipeline.withArrays (cfgs 0).spec c (V0 m c) (fun w => (dats m 0 c).arrAt w (cfgs 0).N)
      (Proc.devRef .tc main_v2) = (dats m 0 c).arrAt 1 cfg0.N :=
    Pipeline.withArrays_arr spec0 launch0.win.arr_inj c (V0 m c) (fun w => (dats m 0 c).arrAt w cfg0.N) 1
  unfold Pipeline.afterTail₀
  show StableHlo.after hostOps1 _ (Proc.devRef .tc main_v4) = _
  after_results
  rw [harr]
  rfl

/-- THE PROGRAM'S RESULT: the quantizer applied to every entry of the argument as launched. -/
theorem value_eq (c : Dev nD) :
    (Pipeline.afterTail₀ cfgs (dats m) 0 (V0 m) [hostOps1] c main_v4 : S64x256x56x56.Idx → EReal)
      = fun i => Cert.Quantize.byProduct (m ((c : Thread nD τ).loc main_arg0) i) := by
  rw [exit_eq, final, entry_eq]
  exact Cert.Lib.reshape_map_reshape Cert.Quantize.byProduct _ _ _ _ _

/-- The run, read: every weakly fair execution of the program terminates, with the result buffer at the quantizer of the
    argument, entry by entry, and the argument unchanged. -/
theorem run : θ_run defs (onTc (τ := τ) (main (F := Ideal))) ⟨m, fun _ => 0, ρ⟩ fun r => ∀ c : Dev nD,
      r.2.mem ((c : Thread nD τ).loc main_v4) = (fun i => Cert.Quantize.byProduct (m ((c : Thread nD τ).loc main_arg0) i))
      ∧ r.2.mem ((c : Thread nD τ).loc main_arg0) = m ((c : Thread nD τ).loc main_arg0) :=
  (θ_run defs _ _).mono (fun r h c =>
      ⟨((h c).2 main_v4 (Pipeline.mem_restRefs_of main_v4 (by decide) (by decide))).trans (value_eq m c),
       ((h c).2 main_arg0 (Pipeline.mem_restRefs_of main_arg0 (by decide) (by decide))).trans (W_main_arg0 m (dats m) c)⟩)
    (run_main m ρ)

end Cert.KernelIdeal.Quant

end
-- ==== Proof.RefValue.lean ====
/-
  The reference, entry by entry.

  The reference program is a chain of nineteen pointwise host operations: it divides every entry by a sixteenth, adds a
  half, floors, clamps between the negation of 128 and the difference 128 - 1 (each bound a scalar repeated over the
  array), and multiplies by a sixteenth.  Read at an index, its result is the quantizer in its quotient spelling of the
  argument's entry at that index.
-/
import proofs.«153642_j26233660244146_2_alg».proof.Proof.Gen.ReferenceIdeal.Read
import proofs.«153642_j26233660244146_2_alg».proof.Proof.Quantize

noncomputable section

namespace Cert.ReferenceIdeal.Quant

open Cert.ReferenceIdeal Cert.ReferenceIdeal.Gen Cert.ReferenceIdeal.Read Idealize.ShloMosaic

/-- The reference's result is the quantizer (quotient spelling) of the argument, entry by entry. -/
theorem result_eq (x : (⟨S64x256x56x56, .f32⟩ : BufTy).Contents (Elt Ideal)) :
    val_main_v9 (F := Ideal) x = fun i => Cert.Quantize.byQuotient (x i) := by
  funext i
  rw [val_main_v9_apply, val_main_v7_apply, val_main_v8_apply, val_main_cst_4_apply, val_main_call0_v2_apply,
    val_main_v6_apply, val_main_cst_2_apply, val_main_cst_3_apply, val_main_call0_v1_apply, val_main_call0_v0_apply,
    val_main_v5_apply, val_main_cst_1_apply, val_main_v4_apply, val_main_v3_apply, val_main_v1_apply, val_main_v0_apply,
    val_main_cst_apply, val_main_v2_apply, val_main_cst_0_apply]
  rfl

end Cert.ReferenceIdeal.Quant

end
-- ==== Proof.lean ====
/-
  A fixed-point quantizer as a tiled kernel against its one-line array form, equal on the extended reals.

  With sixteen steps to the unit and an eight-bit signed range, both programs send every entry x of a
  [64, 256, 56, 56] array to

      clamp (⌊16·x + 1/2⌋, -128, 127) / 16.

  The kernel program flattens the array into 25088 rows of 2048 entries, lets a grid of 56 points each quantize a band
  of 448 rows — scaling by the PRODUCT with 16 and clamping between the literals -128 and 127 — and reshapes the result
  back.  The reference program works on the array as it is: it scales by the QUOTIENT by 1/16 and clamps between the
  negation of 128 and the difference 128 - 1.

  The bridge has three parts.
  * The kernel's result (Proof/KernelBlock, KernelArray, KernelValue): a band of the result array is the quantizer of the
    same band of the input array, the 56 bands tile the array, and a pointwise map commutes with the reshapes around the
    region, which undo one another (Proof/LibReshapeMap) — so the result is the quantizer of the argument, entry by entry.
  * The reference's result (Proof/RefValue): nineteen pointwise operations read at an index.
  * The law (Proof/Quantize): all the constants are dyadic rationals denoted exactly, 128 - 1 is 127, and the quotient by
    the nonzero real 1/16 is the product with 16 on every extended real, the infinities included.  No step uses that the
    inputs are finite.

  The kernel's idealization rewrote no operation, so there is nothing to preserve; the three frames are the generated
  frame runs (the reference's is its generated run with the result dropped).
-/
import proofs.«153642_j26233660244146_2_alg».proof.Defs
import proofs.«153642_j26233660244146_2_alg».proof.Proof.Gen.Kernel
import proofs.«153642_j26233660244146_2_alg».proof.Proof.Gen.Kernel.Skeleton
import proofs.«153642_j26233660244146_2_alg».proof.Proof.Gen.Kernel.Launch
import proofs.«153642_j26233660244146_2_alg».proof.Proof.Gen.Kernel.Points
import proofs.«153642_j26233660244146_2_alg».proof.Proof.Gen.Kernel.Frame
import proofs.«153642_j26233660244146_2_alg».proof.Proof.Gen.KernelIdeal
import proofs.«153642_j26233660244146_2_alg».proof.Proof.Gen.KernelIdeal.Skeleton
import proofs.«153642_j26233660244146_2_alg».proof.Proof.Gen.KernelIdeal.Launch
import proofs.«153642_j26233660244146_2_alg».proof.Proof.Gen.KernelIdeal.Points
import proofs.«153642_j26233660244146_2_alg».proof.Proof.Gen.KernelIdeal.Frame
import proofs.«153642_j26233660244146_2_alg».proof.Proof.Gen.ReferenceIdeal
import proofs.«153642_j26233660244146_2_alg».proof.Proof.Gen.ReferenceIdeal.Run
import proofs.«153642_j26233660244146_2_alg».proof.Proof.Gen.ReferenceIdeal.Read
import proofs.«153642_j26233660244146_2_alg».proof.Proof.Gen.Pre_finite_inputs
import proofs.«153642_j26233660244146_2_alg».proof.Proof.Quantize
import proofs.«153642_j26233660244146_2_alg».proof.Proof.KernelValue
import proofs.«153642_j26233660244146_2_alg».proof.Proof.RefValue
import Idealize.ShloMosaic.Adequacy
import Idealize.ShloMosaic.Init

noncomputable section

namespace Cert.Proof

open Idealize.ShloMosaic Idealize.SL.Sem

/-- The kernel program as printed runs to its end and leaves its argument as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- And the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the argument, the kernel program ends with the quantizer (product spelling) of every
    entry and the reference with the quantizer (quotient spelling) of the same entry: one extended real. -/
theorem algebraic : Cert.algebraic_KernelIdeal_ReferenceIdeal := by
  intro m ρ m' ρ' _ hagree
  refine ⟨_, Cert.KernelIdeal.Quant.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.Quant.result_eq, hagree c]
  funext i
  exact Cert.Quantize.byQuotient_eq_byProduct _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
